-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048 : Shape := ⟨2, ![32, 2048]⟩
abbrev S2048x2048 : Shape := ⟨2, ![2048, 2048]⟩
abbrev S_ : Shape := ⟨0, ![]⟩

class Facts : Prop where
  bcast_S_S32x2048 : S_.BroadcastsInDim S32x2048 (![] : Fin 0 → Fin S32x2048.rank)
  reducesTo_S32x2048_S_d0_1 : S32x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_v13 : IVec S_ 1) (main_v16 : IVec S32x2048 1) : IVec S_ 1 :=
  let main_c_5 : IVec S_ 1 := constantI S_ 1 1#1
  let main_v17 : IVec S_ 1 := (fun x v => Host.reduce IntOp.andi x v reducesTo_S32x2048_S_d0_1 h_S_) main_v16 main_c_5
  let main_v18 : IVec S_ 1 := andi main_v13 main_v17
  main_v18

def fn {F : FTy → Type} [FloatOps F] (main_arg0 : FVec F S32x2048 .f32) (main_arg1 : FVec F S2048x2048 .f32) (main_arg2 : FVec F S32x2048 .f32) (main_arg3 : FVec F S32x2048 .f32) : IVec S_ 1 :=
  let main_v0 : FVec F S32x2048 .f32 := Host.absf main_arg0
  let main_cst : FVec F S_ .f32 := constant S_ .f32 0x7F800000#32
  let main_v1 : FVec F S32x2048 .f32 := broadcastInDim S32x2048 ![] bcast_S_S32x2048 main_cst
  let main_v2 : IVec S32x2048 1 := cmpf .olt main_v0 main_v1
  let main_c : IVec S_ 1 := constantI S_ 1 1#1
  let main_v3 : IVec S_ 1 := (fun x v => Host.reduce IntOp.andi x v reducesTo_S32x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S32x2048 .f32 := Host.absf main_arg2
  let main_cst_2 : FVec F S_ .f32 := constant S_ .f32 0x7F800000#32
  let main_v10 : FVec F S32x2048 .f32 := broadcastInDim S32x2048 ![] bcast_S_S32x2048 main_cst_2
  let main_v11 : IVec S32x2048 1 := cmpf .olt main_v9 main_v10
  let main_c_3 : IVec S_ 1 := constantI S_ 1 1#1
  let main_v12 : IVec S_ 1 := (fun x v => Host.reduce IntOp.andi x v reducesTo_S32x2048_S_d0_1 h_S_) main_v11 main_c_3
  let main_v13 : IVec S_ 1 := andi main_v8 main_v12
  let main_v14 : FVec F S32x2048 .f32 := Host.absf main_arg3
  let main_cst_4 : FVec F S_ .f32 := constant S_ .f32 0x7F800000#32
  let main_v15 : FVec F S32x2048 .f32 := broadcastInDim S32x2048 ![] bcast_S_S32x2048 main_cst_4
  let main_v16 : IVec S32x2048 1 := cmpf .olt main_v14 main_v15
  fn_part1 (F := F) main_v13 main_v16
-- ==== Kernel.lean ====
abbrev S32x2048 : Shape := ⟨2, ![32, 2048]⟩
abbrev S2048x2048 : Shape := ⟨2, ![2048, 2048]⟩
abbrev S512x2048 : Shape := ⟨2, ![512, 2048]⟩
abbrev S32x512 : Shape := ⟨2, ![32, 512]⟩
abbrev S64x512 : Shape := ⟨2, ![64, 512]⟩
abbrev S64x2048 : Shape := ⟨2, ![64, 2048]⟩

abbrev nBuf : Space → Nat
  | .hbm => 6
  | .vmem => 10
  | .smem => 0
  | _ => 0

abbrev bufTy : (tb : Table) → Fin (tcTables nBuf tb) → BufTy
  | .hbm, ⟨0, _⟩ => ⟨S32x2048, .f32⟩
  | .hbm, ⟨1, _⟩ => ⟨S2048x2048, .f32⟩
  | .hbm, ⟨2, _⟩ => ⟨S32x2048, .f32⟩
  | .hbm, ⟨3, _⟩ => ⟨S32x2048, .f32⟩
  | .hbm, ⟨4, _⟩ => ⟨S32x2048, .f32⟩
  | .hbm, ⟨5, _⟩ => ⟨S2048x2048, .f32⟩
  | .local _ .vmem, ⟨0, _⟩ => ⟨S32x2048, .f32⟩
  | .local _ .vmem, ⟨1, _⟩ => ⟨S512x2048, .f32⟩
  | .local _ .vmem, ⟨2, _⟩ => ⟨S512x2048, .f32⟩
  | .local _ .vmem, ⟨3, _⟩ => ⟨S32x2048, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S512x2048, .f32⟩
  | .local _ .vmem, ⟨9, _⟩ => ⟨S512x2048, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S32x2048_S32x2048_0_0 : ∀ a, (![0, 0] : Fin 2 → Nat) a + S32x2048.size a ≤ S32x2048.size a
  h_S32x2048 : 0 < S32x2048.numel
  inb_S512x2048_S512x2048_0_0 : ∀ a, (![0, 0] : Fin 2 → Nat) a + S512x2048.size a ≤ S512x2048.size a
  h_S512x2048 : 0 < S512x2048.numel
  inb_S32x512_S32x512_0_0 : ∀ a, (![0, 0] : Fin 2 → Nat) a + S32x512.size a ≤ S32x512.size a
  h_S32x512 : 0 < S32x512.numel
  natLt_1_32 : 1 < 32
  concatenates_S32x512_S32x512_S64x512_d0 : Shape.Concatenates [S32x512, S32x512] S64x512 0
  concatenates_S32x2048_S32x2048_S64x2048_d0 : Shape.Concatenates [S32x2048, S32x2048] S64x2048 0
  dot_S32x2048_S512x2048_S32x512_1_1_0_0_n_n_wf : DotDims.WF S32x2048 S512x2048 S32x512 [1] [1] [0] [0] [] []
  dot_S64x512_S64x2048_S512x2048_0_0_1_1_n_n_wf : DotDims.WF S64x512 S64x2048 S512x2048 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x2048.size a ≤ S32x2048.size a
  hwx0_0 : ∀ i : grid0.Coords, EltTy.bits .f32 = 32 ∨ (Rect.block (s := S32x2048) S32x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .f32 = 32 ∨ (Rect.block (s := S2048x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x2048.size a ≤ S32x2048.size a
  hwx0_2 : ∀ i : grid0.Coords, EltTy.bits .f32 = 32 ∨ (Rect.block (s := S32x2048) S32x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S32x2048.size a
  hwx0_3 : ∀ i : grid0.Coords, EltTy.bits .f32 = 32 ∨ (Rect.block (s := S32x2048) S32x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x512.size a ≤ S32x2048.size a
  hwx0_4 : ∀ i : grid0.Coords, EltTy.bits .f32 = 32 ∨ (Rect.block (s := S32x2048) S32x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S2048x2048.size a
  hwx0_5 : ∀ i : grid0.Coords, EltTy.bits .f32 = 32 ∨ (Rect.block (s := S2048x2048) S512x2048.size (cc0_transform_5 i) (hinb0_5 i)).WholeWords (EltTy.packing .f32)

variable [Facts₀]

def dot_S32x2048_S512x2048_S32x512_1_1_0_0_n_n : DotDims S32x2048 S512x2048 S32x512 where
  lhsContracting := [1]
  rhsContracting := [1]
  lhsNonContracting := [0]
  rhsNonContracting := [0]
  lhsBatch := []
  rhsBatch := []
  wf := dot_S32x2048_S512x2048_S32x512_1_1_0_0_n_n_wf
def dot_S64x512_S64x2048_S512x2048_0_0_1_1_n_n : DotDims S64x512 S64x2048 S512x2048 where
  lhsContracting := [0]
  rhsContracting := [0]
  lhsNonContracting := [1]
  rhsNonContracting := [1]
  lhsBatch := []
  rhsBatch := []
  wf := dot_S64x512_S64x2048_S512x2048_0_0_1_1_n_n_wf

abbrev win0_0 : Pipeline.Window sig grid0 :=
  Pipeline.Window.ofSpec (Memref.whole main_arg0) S32x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S32x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x2048 : Shape := ⟨2, ![32, 2048]⟩
abbrev S2048x2048 : Shape := ⟨2, ![2048, 2048]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S2048x2048, .f32⟩
  | .hbm, ⟨2, _⟩ => ⟨S32x2048, .f32⟩
  | .hbm, ⟨3, _⟩ => ⟨S32x2048, .f32⟩
  | .hbm, ⟨4, _⟩ => ⟨S2048x2048, .f32⟩
  | .hbm, ⟨5, _⟩ => ⟨S32x2048, .f32⟩
  | .hbm, ⟨6, _⟩ => ⟨S_, .f32⟩
  | .hbm, ⟨7, _⟩ => ⟨S32x2048, .f32⟩
  | .hbm, ⟨8, _⟩ => ⟨S32x2048, .i1⟩
  | .hbm, ⟨9, _⟩ => ⟨S32x2048, .f32⟩
  | .hbm, ⟨10, _⟩ => ⟨S_, .f32⟩
  | .hbm, ⟨11, _⟩ => ⟨S32x2048, .f32⟩
  | .hbm, ⟨12, _⟩ => ⟨S32x2048, .f32⟩
  | .hbm, ⟨13, _⟩ => ⟨S32x2048, .f32⟩
  | .hbm, ⟨14, _⟩ => ⟨S32x2048, .f32⟩
  | .hbm, ⟨15, _⟩ => ⟨S_, .f32⟩
  | .hbm, ⟨16, _⟩ => ⟨S32x2048, .f32⟩
  | .hbm, ⟨17, _⟩ => ⟨S32x2048, .f32⟩
  | .hbm, ⟨18, _⟩ => ⟨S32x2048, .f32⟩
  | .hbm, ⟨19, _⟩ => ⟨S32x2048, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S_S32x2048 : S_.BroadcastsInDim S32x2048 (![] : Fin 0 → Fin S32x2048.rank)
  bcast_S_S2048x2048 : S_.BroadcastsInDim S2048x2048 (![] : Fin 0 → Fin S2048x2048.rank)
  dot_S32x2048_S2048x2048_S32x2048_1_0_0_1_n_n_wf : DotDims.WF S32x2048 S2048x2048 S32x2048 [1] [0] [0] [1] [] []
  dot_S32x2048_S32x2048_S2048x2048_0_0_1_1_n_n_wf : DotDims.WF S32x2048 S32x2048 S2048x2048 [0] [0] [1] [1] [] []

variable [Facts₀]

def dot_S32x2048_S2048x2048_S32x2048_1_0_0_1_n_n : DotDims S32x2048 S2048x2048 S32x2048 where
  lhsContracting := [1]
  rhsContracting := [0]
  lhsNonContracting := [0]
  rhsNonContracting := [1]
  lhsBatch := []
  rhsBatch := []
  wf := dot_S32x2048_S2048x2048_S32x2048_1_0_0_1_n_n_wf
def dot_S32x2048_S32x2048_S2048x2048_0_0_1_1_n_n : DotDims S32x2048 S32x2048 S2048x2048 where
  lhsContracting := [0]
  rhsContracting := [0]
  lhsNonContracting := [1]
  rhsNonContracting := [1]
  lhsBatch := []
  rhsBatch := []
  wf := dot_S32x2048_S32x2048_S2048x2048_0_0_1_1_n_n_wf

class Facts : Prop extends Facts₀ where

variable [Facts]
-- ==== Proof.LibRealEntries.lean ====
/-
  Entries that are real numbers, and the array operations that keep them so (at the ideal instance, where a float is
  an extended real). A sum, a product, a maximum and a finite sum of real numbers are real; hence entrywise sums,
  products and maxima of arrays with real entries, their broadcasts, a gather from such an array (each result entry
  is an entry of the operand), an accumulating scatter of such updates into such an operand (each entry gains
  finitely many real updates), and a contraction of two such arrays (finite sums of real products from zero) all
  have real entries. The reciprocal square root of an extended real that is at least one is real (it is 0 at +∞), so a
  reciprocal square root of anything clamped below at one is real, whatever was clamped.
-/
import Idealize.ShloMosaic.PureOps.Ideal.Laws

noncomputable section

namespace Cert.LibRealEntries

open Idealize.ShloMosaic Idealize.ShloMosaic.TcCoe

/-- An extended real that is a real number. -/
def IsReal (x : EReal) : Prop := ∃ y : ℝ, x = (y : EReal)

theorem IsReal.zero : IsReal 0 := ⟨0, rfl⟩
theorem IsReal.one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  obtain ⟨a, rfl⟩ := hx; obtain ⟨b, rfl⟩ := hy; exact ⟨Max.max a b, (EReal.coe_strictMono.monotone.map_max).symm⟩
theorem IsReal.sum {ι : Type} (s : Finset ι) (f : ι → EReal) (h : ∀ i ∈ s, IsReal (f i)) : IsReal (∑ i ∈ s, f i) :=
  Finset.sum_induction f IsReal (fun _ _ => IsReal.add) IsReal.zero h

/-- The reciprocal square root of an extended real that is at least one is a real number. -/
theorem isReal_rsqrt_of_one_le {x : EReal} (h : 1 ≤ x) : IsReal (Ideal.rsqrt x) := by
  induction x using EReal.rec with
  | bot =>
    have hlt : (⊥ : EReal) < 1 := by exact_mod_cast EReal.bot_lt_coe 1
    exact absurd h (not_le.mpr hlt)
  | top => exact ⟨0, rfl⟩
  | coe r =>
    have hr : (1 : ℝ) ≤ r := by exact_mod_cast h
    show IsReal (if r < 0 then ⊥ else if r = 0 then ⊤ else (((Real.sqrt r)⁻¹ : ℝ) : EReal))
    rw [if_neg (by linarith), if_neg (by linarith)]
    exact ⟨_, rfl⟩

theorem isReal_zero_word : IsReal (Ideal.ofBits .f32 0x00000000#32) := by
  rw [Ideal.ofBits_zero_f32]; exact IsReal.zero

/-! ## The operations keep entries real (any shapes) -/

section Generic
variable {s t si u sl sr so : Shape} {w : Nat}

theorem real_maximumf (a b : FVec Ideal s .f32) (ha : ∀ i, IsReal (a i)) (hb : ∀ i, IsReal (b i)) (i : s.Idx) :
    IsReal (maximumf a b i) := (ha i).max (hb i)
theorem real_addf (a b : FVec Ideal s .f32) (ha : ∀ i, IsReal (a i)) (hb : ∀ i, IsReal (b i)) (i : s.Idx) :
    IsReal (addf a b i) := (ha i).add (hb i)
theorem real_mulf (a b : FVec Ideal s .f32) (ha : ∀ i, IsReal (a i)) (hb : ∀ i, IsReal (b i)) (i : s.Idx) :
    IsReal (mulf a b i) := (ha i).mul (hb i)
theorem real_bcast (dims : Fin s.rank → Fin t.rank) (h : s.BroadcastsInDim t dims) (x : FVec Ideal s .f32)
    (hx : ∀ i, IsReal (x i)) (j : t.Idx) : IsReal (broadcastInDim t dims h x j) := hx _
theorem real_gather (d : GatherDims s si t) (x : FVec Ideal s .f32) (idx : IVec si w) (hx : ∀ i, IsReal (x i)) (j : t.Idx) :
    IsReal (Host.gather d x idx j) := hx _
theorem real_scatterAdd (d : ScatterDims s si u) (x : FVec Ideal s .f32) (idx : IVec si w) (upd : FVec Ideal u .f32)
    (hx : ∀ i, IsReal (x i)) (hu : ∀ j, IsReal (upd j)) (i : s.Idx) : IsReal (Host.scatterAdd d x idx upd i) :=
  (hx i).add (IsReal.sum _ _ fun j _ => hu j)
theorem real_dot (d : DotDims sl sr so) (prec : Option ContractPrecision) (l : FVec Ideal sl .f32) (r : FVec Ideal sr .f32)
    (hl : ∀ i, IsReal (l i)) (hr : ∀ i, IsReal (r i)) (j : so.Idx) : IsReal (Host.dotGeneral d prec l r j) :=
  IsReal.zero.add (IsReal.sum _ _ fun k _ => (hl _).mul (hr _))
/-- A reciprocal square root of a value clamped below at one. -/
theorem real_rsqrt_clamp (one y : FVec Ideal s .f32) (h1 : ∀ i, one i = 1) (i : s.Idx) :
    IsReal (Host.rsqrt (maximumf one y) i) := by
  show IsReal (Ideal.rsqrt (Max.max (one i) (y i)))
  rw [h1 i]; exact isReal_rsqrt_of_one_le (le_max_left _ _)

end Generic

end Cert.LibRealEntries

end
-- ==== Proof.Rule.lean ====
/-
  The spike-timing rule on ONE post-synaptic neuron, over the extended reals.

  A layer of 2048 post-synaptic neurons sees a batch of 32 input rows `x b` (2048 pre-synaptic lines each). Neuron `q`
  has the weight row `w = W q` and, per batch row, a post-synaptic trace `tpost b`; nothing else of `W` or of the
  post-synaptic traces enters what happens at `q`. So the rule is written here for one neuron:

  * the drive of batch row `b` is the inner product `Σ_p x b p · w p`; the neuron spikes (value 1, else 0) when the drive
    is at least one;
  * a trace `v` decays to `v − v / 2`; the pre-synaptic trace then gains the input, the post-synaptic one the spike;
  * the weight is clipped into [−1, 1];
  * the weight change at line `p` is the clipped weight times
    `Σ_b spike b · pre b p − Σ_b post b · x b p`.

  Two groupings of the last line are defined: the difference taken inside one sum of 64 products, the subtrahends entering
  as `(0 − post b) · x b p` (`dwFused`), and the two sums multiplied by `−clip` and `clip` separately and then added
  (`dwSplit`). On the extended reals multiplication does not distribute over a sum in general (∞ − ∞), so the two
  agree only where the quantities are real numbers: `dwSplit_eq_dwFused`, for real inputs.
-/
import Idealize.ShloMosaic.PureOps.Ideal.Laws
import Idealize.ShloMosaic.Lib.ValueIdx
import proofs.«140820_j22308060135454_2_alg».proof.Proof.LibRealEntries

noncomputable section

open scoped BigOperators

namespace Cert.Stdp

open Idealize.ShloMosaic Idealize.ShloMosaic.ValueIdx Cert.LibRealEntries

/-! ## The four float words of the rule, and their values -/

/-- The word of 1.0: the firing threshold and the upper clip bound. -/
abbrev one : EReal := Ideal.ofBits .f32 0x3F800000#32
/-- The word of 2.0: the trace time constant. -/
abbrev two : EReal := Ideal.ofBits .f32 0x40000000#32
/-- The word of −1.0: the lower clip bound. -/
abbrev negOne : EReal := Ideal.ofBits .f32 0xBF800000#32
/-- The word of 0.0, from which a negation is spelt as a difference. -/
abbrev zero : EReal := Ideal.ofBits .f32 0x00000000#32

theorem one_eq : one = ((1 : ℝ) : EReal) := by
  simp [one, Ideal.ofBits, Ideal.ieee, -EReal.coe_mul]; norm_num
theorem two_eq : two = ((2 : ℝ) : EReal) := by
  simp [two, Ideal.ofBits, Ideal.ieee, -EReal.coe_mul]; norm_num
theorem negOne_eq : negOne = ((-1 : ℝ) : EReal) := by
  simp [negOne, Ideal.ofBits, Ideal.ieee, -EReal.coe_mul]; norm_num
theorem zero_eq : zero = 0 := Ideal.ofBits_zero_f32

/-! ## The rule -/

section Rule
variable (x tpre : Fin 32 → Fin 2048 → EReal) (w : Fin 2048 → EReal) (tpost : Fin 32 → EReal)

/-- The drive of batch row `b`: the inner product of the input row with the neuron's weights. -/
def drive (b : Fin 32) : EReal := ∑ p : Fin 2048, x b p * w p

/-- The spike: 1 when the drive reaches the threshold, else 0 (the comparison bit, read as a number). -/
def spike (b : Fin 32) : EReal := (((Ideal.cmp .oge (drive x w b) one).toNat : ℝ) : EReal)

/-- A trace after one step of decay with time constant 2. -/
def decay (v : EReal) : EReal := v - Ideal.div v two

/-- The pre-synaptic trace after the step: decayed, plus the input. -/
def preTrace (b : Fin 32) (p : Fin 2048) : EReal := decay (tpre b p) + x b p

/-- The post-synaptic trace after the step: decayed, plus the spike. -/
def postTrace (b : Fin 32) : EReal := decay (tpost b) + spike x w b

/-- The weight clipped into [−1, 1]. -/
def clipW (p : Fin 2048) : EReal := min one (max negOne (w p))

/-- The weight change, the difference taken inside: the subtrahends enter as `(0 − post b) · x b p`. -/
def dwFused (p : Fin 2048) : EReal :=
  clipW w p * (∑ b : Fin 32, spike x w b * preTrace x tpre b p + ∑ b : Fin 32, (zero - postTrace x w tpost b) * x b p)

/-- The weight change, the two sums scaled separately by `−clip` and `clip` and then added. -/
def dwSplit (p : Fin 2048) : EReal :=
  (-(clipW w p)) * (∑ b : Fin 32, postTrace x w tpost b * x b p) + clipW w p * (∑ b : Fin 32, spike x w b * preTrace x tpre b p)

end Rule

/-! ## The layer's two result arrays -/

/-- The batch rows of a [32, 2048] array as a function of the two coordinates. -/
abbrev rowsOf (a : (⟨2, ![32, 2048]⟩ : Shape).Idx → EReal) : Fin 32 → Fin 2048 → EReal := fun b p => a (ix2 b p)
/-- The weights of neuron `q`: row `q` of an array of `N` neurons' weight rows. -/
abbrev weightRow {N : ℕ} (W : (⟨2, ![N, 2048]⟩ : Shape).Idx → EReal) (q : Fin N) : Fin 2048 → EReal := fun p => W (ix2 q p)
/-- The post-synaptic traces of neuron `q`: column `q` of a [32, N] array. -/
abbrev traceCol {N : ℕ} (a : (⟨2, ![32, N]⟩ : Shape).Idx → EReal) (q : Fin N) : Fin 32 → EReal := fun b => a (ix2 b q)

section Arrays
variable (X Tpre Tpost : (⟨2, ![32, 2048]⟩ : Shape).Idx → EReal) (W : (⟨2, ![2048, 2048]⟩ : Shape).Idx → EReal)

/-- The layer's spikes: entry (b, q) is neuron `q`'s spike on batch row `b`. -/
def spikesOf : (⟨2, ![32, 2048]⟩ : Shape).Idx → EReal :=
  fun i => spike (rowsOf X) (weightRow W (i 1)) (i 0)

/-- The layer's weight change: entry (q, p) is neuron `q`'s change at line `p`, the difference taken inside. -/
def dwOf : (⟨2, ![2048, 2048]⟩ : Shape).Idx → EReal :=
  fun i => dwFused (rowsOf X) (rowsOf Tpre) (weightRow W (i 0)) (traceCol Tpost (i 0)) (i 1)

theorem spikesOf_apply (b : Fin 32) (q : Fin 2048) : spikesOf X W (ix2 b q) = spike (rowsOf X) (weightRow W q) b := rfl
theorem dwOf_apply (q p : Fin 2048) :
    dwOf X Tpre Tpost W (ix2 q p) = dwFused (rowsOf X) (rowsOf Tpre) (weightRow W q) (traceCol Tpost q) p := rfl

end Arrays

/-! ## Real quantities stay real -/

theorem isReal_neg {v : EReal} (h : IsReal v) : IsReal (-v) := by
  obtain ⟨a, rfl⟩ := h; exact ⟨-a, (EReal.coe_neg a).symm⟩
theorem isReal_sub {u v : EReal} (hu : IsReal u) (hv : IsReal v) : IsReal (u - v) := by
  obtain ⟨a, rfl⟩ := hu; obtain ⟨b, rfl⟩ := hv; exact ⟨a - b, (EReal.coe_sub a b).symm⟩
theorem isReal_min {u v : EReal} (hu : IsReal u) (hv : IsReal v) : IsReal (min u v) := by
  obtain ⟨a, rfl⟩ := hu; obtain ⟨b, rfl⟩ := hv; exact ⟨Min.min a b, (EReal.coe_strictMono.monotone.map_min).symm⟩

/-- Half of a real number is a real number. -/
theorem isReal_half {v : EReal} (h : IsReal v) : IsReal (Ideal.div v two) := by
  obtain ⟨a, rfl⟩ := h
  rw [two_eq, Ideal.div_coe (by norm_num : (2 : ℝ) ≠ 0)]
  exact ⟨a * (1 / 2), (EReal.coe_mul a (1 / 2)).symm⟩

theorem isReal_decay {v : EReal} (h : IsReal v) : IsReal (decay v) := isReal_sub h (isReal_half h)

section RealRule
variable {x tpre : Fin 32 → Fin 2048 → EReal} {w : Fin 2048 → EReal} {tpost : Fin 32 → EReal}

theorem isReal_spike (b : Fin 32) : IsReal (spike x w b) := ⟨_, rfl⟩
theorem isReal_preTrace (hx : ∀ b p, IsReal (x b p)) (ht : ∀ b p, IsReal (tpre b p)) (b : Fin 32) (p : Fin 2048) :
    IsReal (preTrace x tpre b p) := (isReal_decay (ht b p)).add (hx b p)
theorem isReal_postTrace (ht : ∀ b, IsReal (tpost b)) (b : Fin 32) : IsReal (postTrace x w tpost b) :=
  (isReal_decay (ht b)).add (isReal_spike b)
theorem isReal_clipW (hw : ∀ p, IsReal (w p)) (p : Fin 2048) : IsReal (clipW w p) :=
  isReal_min ⟨1, one_eq⟩ (IsReal.max ⟨-1, negOne_eq⟩ (hw p))

end RealRule

/-! ## The law joining the two groupings -/

/-- A finite sum of real numbers, taken in the extended reals, is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For real numbers `c`, `A`, `t b`, `u b`:  `(−c)·Σ t·u + c·A = c·(A + Σ (0 − t)·u)`. -/
theorem split_eq_fused {ι : Type} [Fintype ι] {c A : EReal} {t u : ι → EReal} (hc : IsReal c) (hA : IsReal A)
    (ht : ∀ b, IsReal (t b)) (hu : ∀ b, IsReal (u b)) :
    (-c) * (∑ b, t b * u b) + c * A = c * (A + ∑ b, (0 - t b) * u b) := by
  obtain ⟨c', rfl⟩ := hc
  obtain ⟨A', rfl⟩ := hA
  choose t' ht' using ht
  choose u' hu' using hu
  have e1 : (∑ b, t b * u b) = ((∑ b, t' b * u' b : ℝ) : EReal) := by
    rw [coe_sum]; exact Finset.sum_congr rfl fun b _ => by rw [ht' b, hu' b, EReal.coe_mul]
  have e2 : (∑ b, (0 - t b) * u b) = ((∑ b, (0 - t' b) * u' b : ℝ) : EReal) := by
    rw [coe_sum]
    exact Finset.sum_congr rfl fun b _ => by rw [ht' b, hu' b, EReal.coe_mul, EReal.coe_sub, EReal.coe_zero]
  rw [e1, e2, ← EReal.coe_neg, ← EReal.coe_mul, ← EReal.coe_mul, ← EReal.coe_add, ← EReal.coe_add, ← EReal.coe_mul]
  congr 1
  have e3 : (∑ b, (0 - t' b) * u' b) = -(∑ b, t' b * u' b) := by
    rw [← Finset.sum_neg_distrib]; exact Finset.sum_congr rfl fun b _ => by ring
  rw [e3]; ring

/-- For real inputs the two groupings of the weight change agree. -/
theorem dwSplit_eq_dwFused (x tpre : Fin 32 → Fin 2048 → EReal) (w : Fin 2048 → EReal) (tpost : Fin 32 → EReal)
    (hx : ∀ b p, IsReal (x b p)) (htpre : ∀ b p, IsReal (tpre b p)) (hw : ∀ p, IsReal (w p)) (htpost : ∀ b, IsReal (tpost b))
    (p : Fin 2048) : dwSplit x tpre w tpost p = dwFused x tpre w tpost p := by
  unfold dwSplit dwFused
  rw [zero_eq]
  exact split_eq_fused (isReal_clipW hw p)
    (IsReal.sum _ _ fun b _ => (isReal_spike b).mul (isReal_preTrace hx htpre b p))
    (fun b => isReal_postTrace htpost b) (fun b => hx b p)

end Cert.Stdp

end
-- ==== Proof.LibRowsDot.lean ====
/-
  A product of a matrix with the transpose of another, read at an entry.

  A contraction whose dimension numbers say "the second axis of an [A, K] operand against the second axis of a [B, K]
  operand, no batch axis, result [A, B]" reads its left operand at (row of the result, k) and its right operand at
  (column of the result, k), `k` ranging over the one contracted axis.  So the sum over the contraction index of the
  operands' products, at result entry (p, c), is `Σ_{k < K} l (p, k) · r (c, k)`: row p of the left operand against
  row c of the right one; a `tpu.matmul` into the zero splat is exactly that sum at the ideal values.  Generic in A, K, B,
  in the record and in the operands' float formats: the hypotheses are the record's six lists.
-/
import Idealize.ShloMosaic.PureOps.Ideal.Laws
import Idealize.ShloMosaic.Lib.ValueIdx

noncomputable section

namespace Cert.LibRowsDot

open Idealize.ShloMosaic Idealize.ShloMosaic.ValueIdx

/-- The dimension numbers of a product of rows `[A, K] × [B, K] → [A, B]`. -/
structure Rows {A K B : Nat} (D : DotDims ⟨2, ![A, K]⟩ ⟨2, ![B, K]⟩ ⟨2, ![A, B]⟩) : Prop where
  lc : D.lhsContracting = [1]
  rc : D.rhsContracting = [1]
  ln : D.lhsNonContracting = [0]
  rn : D.rhsNonContracting = [0]
  lb : D.lhsBatch = []
  rb : D.rhsBatch = []

variable {A K B : Nat} {D : DotDims ⟨2, ![A, K]⟩ ⟨2, ![B, K]⟩ ⟨2, ![A, B]⟩}

/-- One axis is contracted. -/
theorem Rows.rank (h : Rows D) : D.contr.rank = 1 := by rw [D.rank_contr, h.lc]; rfl

/-- Its extent is `K`. -/
theorem Rows.size (h : Rows D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Rows.lhs0 (h : Rows D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Rows.lhs1 (h : Rows D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the result's column, which is ITS row … -/
theorem Rows.rhs0 (h : Rows D) (j : (⟨2, ![A, B]⟩ : Shape).Idx) (q : D.contr.Idx) : (D.rhsIdx j q 0).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- … and the contraction position. -/
theorem Rows.rhs1 (h : Rows D) (j : (⟨2, ![A, B]⟩ : Shape).Idx) (q : D.contr.Idx) :
    (D.rhsIdx j q 1).val = (q ⟨0, by rw [h.rank]; exact Nat.one_pos⟩).val :=
  D.rhsIdx_val_of_single h.rc j q

/-- The contraction sum at result entry `(p, c)` is `Σ_k l (p, k) · r (c, k)`. -/
theorem Rows.sum_eq (h : Rows D) (l : (⟨2, ![A, K]⟩ : Shape).Idx → EReal) (r : (⟨2, ![B, K]⟩ : Shape).Idx → EReal)
    (p : Fin A) (c : Fin B) :
    ∑ q : D.contr.Idx, l (D.lhsIdx (ix2 p c) q) * r (D.rhsIdx (ix2 p c) q) = ∑ k : Fin K, l (ix2 p k) * r (ix2 c k) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 c k := funext fun a => Fin.ext (by
    match a with
    | ⟨0, _⟩ => exact h.rhs0 _ _
    | ⟨1, _⟩ => exact (h.rhs1 _ _).trans hk)
  rw [el, er]

/-- A `tpu.matmul` of such dimension numbers into the zero accumulator, at the ideal values, read at `(p, c)`. -/
theorem Rows.matmul_zero_apply (h : Rows D) (prec : Option ContractPrecision) {φ₁ φ₂ : FTy}
    (l : FVec Ideal ⟨2, ![A, K]⟩ φ₁) (r : FVec Ideal ⟨2, ![B, K]⟩ φ₂) (p : Fin A) (c : Fin B) :
    FloatOps.matmul D prec l r (constant ⟨2, ![A, B]⟩ .f32 0x00000000#32) (ix2 p c) = ∑ k : Fin K, l (ix2 p k) * r (ix2 c k) :=
  (Ideal.matmul_constant_zero_apply D prec l r (ix2 p c)).trans (h.sum_eq l r p c)

end Cert.LibRowsDot

end
-- ==== Proof.LibColsDot.lean ====
/-
  A product of the transpose of a matrix with another matrix, read at an entry.

  A contraction whose dimension numbers say "the first axis of a [K, A] operand against the first axis of a [K, B]
  operand, no batch axis, result [A, B]" reads its left operand at (k, row of the result) and its right operand at
  (k, column of the result), `k` ranging over the one contracted axis.  So the sum over the contraction index of the
  operands' products, at result entry (p, c), is `Σ_{k < K} l (k, p) · r (k, c)`: column p of the left operand against
  column c of the right one; a `tpu.matmul` into the zero splat is exactly that sum at the ideal values.  Generic in K, A, B,
  in the record and in the operands' float formats: the hypotheses are the record's six lists.
-/
import Idealize.ShloMosaic.PureOps.Ideal.Laws
import Idealize.ShloMosaic.Lib.ValueIdx

noncomputable section

namespace Cert.LibColsDot

open Idealize.ShloMosaic Idealize.ShloMosaic.ValueIdx

/-- The dimension numbers of a product of columns `[K, A] × [K, B] → [A, B]`. -/
structure Cols {K A B : Nat} (D : DotDims ⟨2, ![K, A]⟩ ⟨2, ![K, B]⟩ ⟨2, ![A, B]⟩) : Prop where
  lc : D.lhsContracting = [0]
  rc : D.rhsContracting = [0]
  ln : D.lhsNonContracting = [1]
  rn : D.rhsNonContracting = [1]
  lb : D.lhsBatch = []
  rb : D.rhsBatch = []

variable {K A B : Nat} {D : DotDims ⟨2, ![K, A]⟩ ⟨2, ![K, B]⟩ ⟨2, ![A, B]⟩}

/-- One axis is contracted. -/
theorem Cols.rank (h : Cols D) : D.contr.rank = 1 := by rw [D.rank_contr, h.lc]; rfl

/-- Its extent is `K`. -/
theorem Cols.size (h : Cols D) : D.contr.size ⟨0, by rw [h.rank]; exact Nat.one_pos⟩ = K := by
  rw [D.size_contr 0 (by rw [h.lc]; exact Nat.one_pos)]
  simp only [h.lc, List.getElem_cons_zero]
  rfl

/-- The left operand is read at the contraction position … -/
theorem Cols.lhs0 (h : Cols D) (j : (⟨2, ![A, B]⟩ : Shape).Idx) (q : D.contr.Idx) :
    (D.lhsIdx j q 0).val = (q ⟨0, by rw [h.rank]; exact Nat.one_pos⟩).val :=
  D.lhsIdx_val_of_single h.lc j q

/-- … and the result's row, which is ITS column, -/
theorem Cols.lhs1 (h : Cols D) (j : (⟨2, ![A, B]⟩ : Shape).Idx) (q : D.contr.Idx) : (D.lhsIdx j q 1).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- the right operand at the contraction position … -/
theorem Cols.rhs0 (h : Cols D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Cols.rhs1 (h : Cols D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (k, p) · r (k, c)`. -/
theorem Cols.sum_eq (h : Cols D) (l : (⟨2, ![K, A]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 k p) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 k p := funext fun a => Fin.ext (by
    match a with
    | ⟨0, _⟩ => exact (h.lhs0 _ _).trans hk
    | ⟨1, _⟩ => exact h.lhs1 _ _)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Cols.matmul_zero_apply (h : Cols D) (prec : Option ContractPrecision) {φ₁ φ₂ : FTy}
    (l : FVec Ideal ⟨2, ![K, A]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 k p) * r (ix2 k c) :=
  (Ideal.matmul_constant_zero_apply D prec l r (ix2 p c)).trans (h.sum_eq l r p c)

end Cert.LibColsDot

end
-- ==== Proof.LibJoinedRows.lean ====
/-
  Layout reads a gather / scatter pipeline over an edge list meets, each at an entry given by its coordinates, generic in
  the extents and (but for the last section) the entry type:

  * a scalar spread over any shape reads the scalar everywhere;
  * a vector `[a]` made a column `[a, 1]` reads, at `(i, 0)`, the vector's entry `i`;
  * a column `[a, 1]` spread across `[a, b]` reads, at `(i, j)`, the column's entry `i`;
  * the transpose of an `[a, b]` matrix reads, at `(j, i)`, the matrix at `(i, j)`;
  * two arrays joined along their first axis (`[E₁, C]` and `[E₂, C]` into `[T, C]`; `[E₁]` and `[E₂]` into `[T]`) read
    the first piece at a row below `E₁` and the second piece, `E₁` rows up, at or above it;
  * a sum over the `T = E₁ + E₂` rows of a joined array is the sum over the first piece's rows plus the sum over the
    second piece's.
-/
import Idealize.ShloMosaic.Lib.Pipeline.Value
import Idealize.ShloMosaic.Lib.ValueIdx

noncomputable section

open scoped BigOperators

namespace Cert.LibJoinedRows

open Idealize.ShloMosaic Idealize.ShloMosaic.ValueIdx

variable {α : Type}

/-- A scalar spread over a shape reads the scalar at every index. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads the vector's entry. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column spread across the columns of each row reads the column's entry of that row. -/
theorem bcast_col_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x _ (ix2 i (0 : Fin 1)) fun ax => ?_
  match ax with
  | ⟨0, _⟩ =>
    show i.val = if a = 1 then 0 else i.val
    split
    · have := i.isLt; omega
    · rfl
  | ⟨1, _⟩ => rfl

/-- The transpose of a matrix reads the matrix at the swapped coordinates. -/
theorem transpose2_apply {a b : ℕ} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) := by
  refine transpose_apply [1, 0] x h (ix2 j i) (ix2 i j) fun bx => ?_
  match bx with
  | ⟨0, _⟩ => rfl
  | ⟨1, _⟩ => rfl

/-! ## Two arrays joined along the first axis -/

section Join
variable {E1 E2 T C : ℕ}

/-- A row below the first piece's extent reads the first piece. -/
theorem join_rows_left (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E1) (he : e.val < T) (c : Fin C) :
    concatenate ⟨2, ![T, C]⟩ 0 [⟨_, x₁⟩, ⟨_, x₂⟩] h (ix2 ⟨e.val, he⟩ c) = x₁ (ix2 e c) :=
  concatenate_pair_apply_left 0 x₁ x₂ h _ rfl (ix2 e c) (fun b => by
    match b with
    | ⟨0, _⟩ => rfl
    | ⟨1, _⟩ => rfl)

/-- A row at or above it reads the second piece, that many rows up. -/
theorem join_rows_right (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E2) (he : E1 + e.val < T) (c : Fin C) :
    concatenate ⟨2, ![T, C]⟩ 0 [⟨_, x₁⟩, ⟨_, x₂⟩] h (ix2 ⟨E1 + e.val, he⟩ c) = x₂ (ix2 e c) :=
  concatenate_pair_apply_right 0 x₁ x₂ h _ rfl rfl (ix2 e c) (fun b hb => by
    match b with
    | ⟨0, _⟩ => exact absurd rfl hb
    | ⟨1, _⟩ => rfl) (by show e.val + E1 = E1 + e.val; omega)

/-- The same for one-axis arrays: an entry below the first piece's extent … -/
theorem join_vec_left (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E1) (he : e.val < T) :
    concatenate ⟨1, ![T]⟩ 0 [⟨_, x₁⟩, ⟨_, x₂⟩] h (ix1 ⟨e.val, he⟩) = x₁ (ix1 e) :=
  concatenate_pair_apply_left 0 x₁ x₂ h _ rfl (ix1 e) (fun b => by
    match b with
    | ⟨0, _⟩ => rfl)

/-- … and one at or above it. -/
theorem join_vec_right (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E2) (he : E1 + e.val < T) :
    concatenate ⟨1, ![T]⟩ 0 [⟨_, x₁⟩, ⟨_, x₂⟩] h (ix1 ⟨E1 + e.val, he⟩) = x₂ (ix1 e) :=
  concatenate_pair_apply_right 0 x₁ x₂ h _ rfl rfl (ix1 e) (fun b hb => by
    match b with
    | ⟨0, _⟩ => exact absurd rfl hb) (by show e.val + E1 = E1 + e.val; omega)

/-- A sum over `T = E₁ + E₂` rows is the sum over the first `E₁` plus the sum over the last `E₂`. -/
theorem sum_rows_split {M : Type} [AddCommMonoid M] (hT : T = E1 + E2) (f : Fin T → M) :
    ∑ e', f e' = ∑ e : Fin E1, f ⟨e.val, by omega⟩ + ∑ e : Fin E2, f ⟨E1 + e.val, by omega⟩ := by
  subst hT
  rw [Fin.sum_univ_add]
  congr 1 <;> exact Finset.sum_congr rfl fun e _ => congrArg f (Fin.ext rfl)

end Join

end Cert.LibJoinedRows

end
-- ==== Proof.BodyReads.lean ====
/-
  The kernel body's two stored values, entry by entry, are the rule of Rule.lean on the body's blocks.

  At one grid point the body holds all 32 input rows and pre-synaptic traces, and a block of 512 neurons: their weight
  rows and their columns of the post-synaptic traces. It stores the block's spikes, and the block's weight change as the
  clipped weights times ONE contraction over 64 rows: the 32 spike rows stacked on the 32 negated post-synaptic trace rows,
  against the 32 pre-synaptic trace rows stacked on the 32 input rows. Splitting the 64-term sum at row 32 gives the two
  sums of the rule, the difference taken inside (`dwFused`); the negation is spelt `0 − v`.
-/
import proofs.«140820_j22308060135454_2_alg».proof.Proof.Gen.KernelIdeal.Skeleton
import proofs.«140820_j22308060135454_2_alg».proof.Proof.Rule
import proofs.«140820_j22308060135454_2_alg».proof.Proof.LibRowsDot
import proofs.«140820_j22308060135454_2_alg».proof.Proof.LibColsDot
import proofs.«140820_j22308060135454_2_alg».proof.Proof.LibJoinedRows

noncomputable section

open scoped BigOperators

namespace Cert.Stdp.Body

open Cert.KernelIdeal Cert.KernelIdeal.Gen Idealize.ShloMosaic Idealize.ShloMosaic.ValueIdx Cert.Stdp

/-- The first contraction takes rows of the inputs against rows of the weight block. -/
theorem rowsDims : Cert.LibRowsDot.Rows (A := 32) (K := 2048) (B := 512) dot_S32x2048_S512x2048_S32x512_1_1_0_0_n_n :=
  ⟨rfl, rfl, rfl, rfl, rfl, rfl⟩

/-- The second contraction takes columns of the stacked spikes and traces against columns of the stacked traces and inputs. -/
theorem colsDims : Cert.LibColsDot.Cols (K := 64) (A := 512) (B := 2048) dot_S64x512_S64x2048_S512x2048_0_0_1_1_n_n :=
  ⟨rfl, rfl, rfl, rfl, rfl, rfl⟩

/-- A comparison bit widened to 32 bits and read signed is the bit read unsigned: 0 or 1. -/
theorem bit_as_number (w : BitVec 1) : (((w.setWidth 32).toInt : ℝ) : EReal) = ((w.toNat : ℝ) : EReal) := by
  have h : (w.setWidth 32).toInt = (w.toNat : ℤ) := by
    rcases BitVec.eq_zero_or_eq_one w with h | h <;> subst h <;> decide
  rw [h, Int.cast_natCast]

variable (v0 : Vec Ideal S32x2048 .f32) (v1 : Vec Ideal S512x2048 .f32) (v2 : Vec Ideal S32x2048 .f32) (v3 : Vec Ideal S32x512 .f32)

/-- The stored spike block at (b, q). -/
theorem spike_at (b : Fin 32) (q : Fin 512) :
    k0_pay1 (F := Ideal) v0 v1 (ix2 b q) = spike (rowsOf v0) (weightRow v1 q) b := by
  unfold k0_pay1 spike drive
  show ((((Ideal.cmp .oge (FloatOps.matmul (F := Ideal) dot_S32x2048_S512x2048_S32x512_1_1_0_0_n_n (some .fp32) v0 v1
      (constant S32x512 .f32 0x00000000#32) (ix2 b q)) one).setWidth 32).toInt : ℝ) : EReal) = _
  rw [rowsDims.matmul_zero_apply (some .fp32) v0 v1 b q]
  exact bit_as_number _

/-- The contraction over the 64 stacked rows, at (q, p), is the sum over the first pieces' 32 rows plus the sum over the
    second pieces'. -/
theorem stacked_at (h1 : Shape.Concatenates [S32x512, S32x512] S64x512 0) (h2 : Shape.Concatenates [S32x2048, S32x2048] S64x2048 0)
    (s nt : FVec Ideal S32x512 .f32) (tp xx : FVec Ideal S32x2048 .f32) (q : Fin 512) (p : Fin 2048) :
    matmul (F := Ideal) dot_S64x512_S64x2048_S512x2048_0_0_1_1_n_n none
        (concatenate S64x512 0 [⟨S32x512, s⟩, ⟨S32x512, nt⟩] h1)
        (concatenate S64x2048 0 [⟨S32x2048, tp⟩, ⟨S32x2048, xx⟩] h2)
        (constant S512x2048 .f32 0x00000000#32) (ix2 q p)
      = ∑ b : Fin 32, s (ix2 b q) * tp (ix2 b p) + ∑ b : Fin 32, nt (ix2 b q) * xx (ix2 b p) := by
  refine (colsDims.matmul_zero_apply none _ _ q p).trans ?_
  rw [Cert.LibJoinedRows.sum_rows_split (E1 := 32) (E2 := 32) rfl]
  congr 1
  · refine Finset.sum_congr rfl fun b _ => ?_
    rw [Cert.LibJoinedRows.join_rows_left h1 s nt b _ q, Cert.LibJoinedRows.join_rows_left h2 tp xx b _ p]
  · refine Finset.sum_congr rfl fun b _ => ?_
    rw [Cert.LibJoinedRows.join_rows_right h1 s nt b _ q, Cert.LibJoinedRows.join_rows_right h2 tp xx b _ p]

/-- The stored weight-change block at (q, p). -/
theorem dw_at (q : Fin 512) (p : Fin 2048) :
    k0_pay2 (F := Ideal) v0 v1 v2 v3 (ix2 q p) = dwFused (rowsOf v0) (rowsOf v2) (weightRow v1 q) (traceCol v3 q) p := by
  unfold k0_pay2
  rw [mulf_apply, stacked_at]
  unfold dwFused
  congr 1
  congr 1
  · refine Finset.sum_congr rfl fun b _ => ?_
    rw [spike_at]
    rfl
  · refine Finset.sum_congr rfl fun b _ => ?_
    rw [subf_apply, addf_apply, spike_at]
    rfl

end Cert.Stdp.Body

end
-- ==== Proof.Blocks.lean ====
/-
  From blocks to arrays: what the four grid points write back tiles the two result arrays.

  Grid point `t` (0 ≤ t < 4) works on neurons 512·t … 512·t + 511. It reads all of the inputs and of the pre-synaptic
  traces, rows 512·t … of the weight matrix and columns 512·t … of the post-synaptic traces; it writes columns 512·t … of
  the spike array and rows 512·t … of the weight change. Entry (b, q') of the spike block is the rule's spike for
  neuron 512·t + q' (BodyReads.lean, with each input block read as the part of its array it is), that is, the block of
  the layer's spike array at point `t`; likewise for the weight change. The four column blocks cover the spike array,
  the four row blocks the weight change: the neuron (i 1) / 512, respectively (i 0) / 512, names the point that covers
  index `i`. So after the run each result array is the layer's function of the four argument arrays.
-/
import proofs.«140820_j22308060135454_2_alg».proof.Proof.Gen.KernelIdeal.Value
import proofs.«140820_j22308060135454_2_alg».proof.Proof.BodyReads

noncomputable section

namespace Cert.Stdp.Blocks

open Cert.KernelIdeal Cert.KernelIdeal.Gen Cert.KernelIdeal.Value
open Idealize.ShloMosaic Idealize.ShloMosaic.TcCoe Idealize.SL.Sem Idealize.ShloMosaic.ValueIdx Cert.Stdp
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block index of every window at every grid point: the inputs and pre-synaptic traces stay at block (0, 0); the
    weights and the weight change move down the rows with the point, the post-synaptic traces and the spikes along the
    columns (decided over the four points). -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = t.val ∧ win0_5.index t (1 : Fin 2) = 0 :=
  (by decide +kernel : ∀ t : Fin grid0.N, _)

theorem point_lt (t : Fin cfg0.N) : t.val < 4 := lt_of_lt_of_eq t.isLt (show cfg0.N = 4 from N_0)

/-! ## Each input block is the part of its array the point works on -/

/-- The inputs' block is the whole array. -/
theorem x_block (c : Dev nD) (t : Fin cfg0.N) (b : Fin 32) (p : Fin 2048) :
    (iblk m c 0 t : Vec Ideal S32x2048 .f32) (ix2 b p)
      = (m ((c : Thread nD τ).loc main_arg0) : S32x2048.Idx → EReal) (ix2 b p) := by
  obtain ⟨e0, e1, -⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 2) * 32 + 1 * b.val = b.val; rw [e0]; omega
  | ⟨1, _⟩ => show win0_0.index t (1 : Fin 2) * 2048 + 1 * p.val = p.val; rw [e1]; omega

/-- The weights' block is rows 512·t … of the weight matrix. -/
theorem w_block (c : Dev nD) (t : Fin cfg0.N) (q : Fin 512) (p : Fin 2048) (h : 512 * t.val + q.val < 2048) :
    (iblk m c 1 t : Vec Ideal S512x2048 .f32) (ix2 q p)
      = (m ((c : Thread nD τ).loc main_arg1) : S2048x2048.Idx → EReal) (ix2 ⟨512 * t.val + q.val, h⟩ p) := by
  obtain ⟨-, -, e0, e1, -⟩ := idx_facts t
  unfold iblk
  rw [View.read_apply]
  show V m c main_arg1 _ = m (c.tc.loc main_arg1) _
  unfold V
  congr 1
  funext a
  apply Fin.ext
  match a with
  | ⟨0, _⟩ => show win0_1.index t (0 : Fin 2) * 512 + 1 * q.val = 512 * t.val + q.val; rw [e0]; omega
  | ⟨1, _⟩ => show win0_1.index t (1 : Fin 2) * 2048 + 1 * p.val = p.val; rw [e1]; omega

/-- The pre-synaptic traces' block is the whole array. -/
theorem tpre_block (c : Dev nD) (t : Fin cfg0.N) (b : Fin 32) (p : Fin 2048) :
    (iblk m c 2 t : Vec Ideal S32x2048 .f32) (ix2 b p)
      = (m ((c : Thread nD τ).loc main_arg2) : S32x2048.Idx → EReal) (ix2 b p) := by
  obtain ⟨-, -, -, -, e0, e1, -⟩ := idx_facts t
  unfold iblk
  rw [View.read_apply]
  show V m c main_arg2 _ = m (c.tc.loc main_arg2) _
  unfold V
  congr 1
  funext a
  apply Fin.ext
  match a with
  | ⟨0, _⟩ => show win0_2.index t (0 : Fin 2) * 32 + 1 * b.val = b.val; rw [e0]; omega
  | ⟨1, _⟩ => show win0_2.index t (1 : Fin 2) * 2048 + 1 * p.val = p.val; rw [e1]; omega

/-- The post-synaptic traces' block is columns 512·t … of their array. -/
theorem tpost_block (c : Dev nD) (t : Fin cfg0.N) (b : Fin 32) (q : Fin 512) (h : 512 * t.val + q.val < 2048) :
    (iblk m c 3 t : Vec Ideal S32x512 .f32) (ix2 b q)
      = (m ((c : Thread nD τ).loc main_arg3) : S32x2048.Idx → EReal) (ix2 b ⟨512 * t.val + q.val, h⟩) := by
  obtain ⟨-, -, -, -, -, -, e0, e1, -⟩ := idx_facts t
  unfold iblk
  rw [View.read_apply]
  show V m c main_arg3 _ = m (c.tc.loc main_arg3) _
  unfold V
  congr 1
  funext a
  apply Fin.ext
  match a with
  | ⟨0, _⟩ => show win0_3.index t (0 : Fin 2) * 32 + 1 * b.val = b.val; rw [e0]; omega
  | ⟨1, _⟩ => show win0_3.index t (1 : Fin 2) * 512 + 1 * q.val = 512 * t.val + q.val; rw [e1]; omega

theorem rows_x (c : Dev nD) (t : Fin cfg0.N) :
    rowsOf (iblk m c 0 t : Vec Ideal S32x2048 .f32) = rowsOf (m ((c : Thread nD τ).loc main_arg0) : S32x2048.Idx → EReal) :=
  funext fun b => funext fun p => x_block m c t b p

theorem rows_tpre (c : Dev nD) (t : Fin cfg0.N) :
    rowsOf (iblk m c 2 t : Vec Ideal S32x2048 .f32) = rowsOf (m ((c : Thread nD τ).loc main_arg2) : S32x2048.Idx → EReal) :=
  funext fun b => funext fun p => tpre_block m c t b p

theorem row_w (c : Dev nD) (t : Fin cfg0.N) (q : Fin 512) (h : 512 * t.val + q.val < 2048) :
    weightRow (N := 512) (iblk m c 1 t : Vec Ideal S512x2048 .f32) q
      = weightRow (N := 2048) (m ((c : Thread nD τ).loc main_arg1) : S2048x2048.Idx → EReal) ⟨512 * t.val + q.val, h⟩ :=
  funext fun p => w_block m c t q p h

theorem col_tpost (c : Dev nD) (t : Fin cfg0.N) (q : Fin 512) (h : 512 * t.val + q.val < 2048) :
    traceCol (N := 512) (iblk m c 3 t : Vec Ideal S32x512 .f32) q
      = traceCol (N := 2048) (m ((c : Thread nD τ).loc main_arg3) : S32x2048.Idx → EReal) ⟨512 * t.val + q.val, h⟩ :=
  funext fun b => tpost_block m c t b q h

/-! ## The spike array -/

/-- Entry (b, q') of point `t`'s spike block sits at (b, 512·t + q') of the spike array. -/
theorem spikes_emb (t : Fin cfg0.N) (b : Fin 32) (q : Fin 512) (h : 512 * t.val + q.val < 2048) :
    ((cfg0.win 4).blk t).view.emb (ix2 b q) = (ix2 b ⟨512 * t.val + q.val, h⟩ : S32x2048.Idx) := by
  obtain ⟨-, -, -, -, -, -, -, -, e0, e1, -⟩ := idx_facts t
  funext a
  apply Fin.ext
  match a with
  | ⟨0, _⟩ => show win0_4.index t (0 : Fin 2) * 32 + 1 * b.val = b.val; rw [e0]; omega
  | ⟨1, _⟩ => show win0_4.index t (1 : Fin 2) * 512 + 1 * q.val = 512 * t.val + q.val; rw [e1]; omega

/-- What point `t` writes back to the spike array is block `t` of the layer's spike array. -/
theorem spikes_flushed (c : Dev nD) (t : Fin cfg0.N) :
    (dats m 0 c).flushed 4 t = ((cfg0.win 4).blk t).view.read (Elt Ideal)
      (spikesOf (m ((c : Thread nD τ).loc main_arg0)) (m ((c : Thread nD τ).loc main_arg1))) := by
  rw [flushed4]
  unfold out0_4
  rw [View.canon_unit_zero hz]
  simp only [View.ld_unit_zero (S := S32x2048) hz, View.ld_unit_zero (S := S512x2048) hz]
  funext y
  obtain ⟨b, q, rfl⟩ : ∃ (b : Fin 32) (q : Fin 512), y = ix2 b q := ⟨y 0, y 1, eq_ix2 y⟩
  have ht := point_lt t
  have hq : 512 * t.val + q.val < 2048 := by have := q.isLt; omega
  show k0_pay1 (iblk m c 0 t) (iblk m c 1 t) (ix2 b q) = spikesOf _ _ (((cfg0.win 4).blk t).view.emb (ix2 b q))
  rw [spikes_emb t b q hq, spikesOf_apply]
  refine (Body.spike_at (iblk m c 0 t) (iblk m c 1 t) b q).trans ?_
  rw [rows_x m c t, row_w m c t q hq]

/-- An index of the spike array is in point `t`'s block iff each coordinate is in the block's range on its axis. -/
theorem spikes_mem (t : Fin cfg0.N) (i : S32x2048.Idx) :
    i ∈ ((cfg0.win 4).blk t).view.set ↔ ∀ a : Fin 2, win0_4.index t a * S32x512.size a ≤ (i a).val
      ∧ (i a).val < win0_4.index t a * S32x512.size a + S32x512.size a := by
  show i ∈ ((View.whole main_v0_0).slice (win0_4.rect t)).set ↔ _
  rw [View.set_slice_whole, Rect.mem_set_unit]
  exact Iff.rfl

/-- Every index of the spike array is in the block of the point its neuron names. -/
theorem spikes_cover (i : S32x2048.Idx) :
    ∃ t : Fin cfg0.N, (cfg0.win 4).flush t = true ∧ i ∈ ((cfg0.win 4).blk t).view.set := by
  have hi0 : (i 0).val < 32 := (i 0).isLt
  have hi1 : (i 1).val < 2048 := (i 1).isLt
  obtain ⟨t, ht⟩ : ∃ t : Fin cfg0.N, t.val = (i 1).val / 512 :=
    ⟨⟨(i 1).val / 512, by rw [show cfg0.N = 4 from N_0]; omega⟩, rfl⟩
  obtain ⟨-, -, -, -, -, -, -, -, e0, e1, -⟩ := idx_facts t
  refine ⟨t, flush0_4 t, ?_⟩
  rw [spikes_mem]
  intro a
  match a with
  | ⟨0, _⟩ =>
    show win0_4.index t (0 : Fin 2) * 32 ≤ (i 0).val ∧ (i 0).val < win0_4.index t (0 : Fin 2) * 32 + 32
    rw [e0]; omega
  | ⟨1, _⟩ =>
    show win0_4.index t (1 : Fin 2) * 512 ≤ (i 1).val ∧ (i 1).val < win0_4.index t (1 : Fin 2) * 512 + 512
    rw [e1, ht]; omega

/-- After the run the spike array is the layer's spike array of the arguments. -/
theorem spikes_final (c : Dev nD) :
    (dats m 0 c).arrAt 4 cfg0.N = spikesOf (m ((c : Thread nD τ).loc main_arg0)) (m ((c : Thread nD τ).loc main_arg1)) :=
  (dats m 0 c).arrAt_eq_of_cover 4 _ (fun t _ => spikes_flushed m c t) spikes_cover

/-! ## The weight change -/

/-- Entry (q', p) of point `t`'s weight-change block sits at (512·t + q', p) of the array. -/
theorem dw_emb (t : Fin cfg0.N) (q : Fin 512) (p : Fin 2048) (h : 512 * t.val + q.val < 2048) :
    ((cfg0.win 5).blk t).view.emb (ix2 q p) = (ix2 ⟨512 * t.val + q.val, h⟩ p : S2048x2048.Idx) := by
  obtain ⟨-, -, -, -, -, -, -, -, -, -, e0, e1⟩ := idx_facts t
  funext a
  apply Fin.ext
  match a with
  | ⟨0, _⟩ => show win0_5.index t (0 : Fin 2) * 512 + 1 * q.val = 512 * t.val + q.val; rw [e0]; omega
  | ⟨1, _⟩ => show win0_5.index t (1 : Fin 2) * 2048 + 1 * p.val = p.val; rw [e1]; omega

/-- What point `t` writes back to the weight change is block `t` of the layer's weight change. -/
theorem dw_flushed (c : Dev nD) (t : Fin cfg0.N) :
    (dats m 0 c).flushed 5 t = ((cfg0.win 5).blk t).view.read (Elt Ideal)
      (dwOf (m ((c : Thread nD τ).loc main_arg0)) (m ((c : Thread nD τ).loc main_arg2))
        (m ((c : Thread nD τ).loc main_arg3)) (m ((c : Thread nD τ).loc main_arg1))) := by
  rw [flushed5]
  unfold out0_5
  rw [View.canon_unit_zero hz]
  simp only [View.ld_unit_zero (S := S32x2048) hz, View.ld_unit_zero (S := S512x2048) hz, View.ld_unit_zero (S := S32x512) hz]
  funext y
  obtain ⟨q, p, rfl⟩ : ∃ (q : Fin 512) (p : Fin 2048), y = ix2 q p := ⟨y 0, y 1, eq_ix2 y⟩
  have ht := point_lt t
  have hq : 512 * t.val + q.val < 2048 := by have := q.isLt; omega
  show k0_pay2 (iblk m c 0 t) (iblk m c 1 t) (iblk m c 2 t) (iblk m c 3 t) (ix2 q p)
    = dwOf _ _ _ _ (((cfg0.win 5).blk t).view.emb (ix2 q p))
  rw [dw_emb t q p hq, dwOf_apply]
  refine (Body.dw_at (iblk m c 0 t) (iblk m c 1 t) (iblk m c 2 t) (iblk m c 3 t) q p).trans ?_
  rw [rows_x m c t, rows_tpre m c t, row_w m c t q hq, col_tpost m c t q hq]

/-- An index of the weight change is in point `t`'s block iff each coordinate is in the block's range on its axis. -/
theorem dw_mem (t : Fin cfg0.N) (i : S2048x2048.Idx) :
    i ∈ ((cfg0.win 5).blk t).view.set ↔ ∀ a : Fin 2, win0_5.index t a * S512x2048.size a ≤ (i a).val
      ∧ (i a).val < win0_5.index t a * S512x2048.size a + S512x2048.size a := by
  show i ∈ ((View.whole main_v0_1).slice (win0_5.rect t)).set ↔ _
  rw [View.set_slice_whole, Rect.mem_set_unit]
  exact Iff.rfl

/-- Every index of the weight change is in the block of the point its neuron names. -/
theorem dw_cover (i : S2048x2048.Idx) :
    ∃ t : Fin cfg0.N, (cfg0.win 5).flush t = true ∧ i ∈ ((cfg0.win 5).blk t).view.set := by
  have hi0 : (i 0).val < 2048 := (i 0).isLt
  have hi1 : (i 1).val < 2048 := (i 1).isLt
  obtain ⟨t, ht⟩ : ∃ t : Fin cfg0.N, t.val = (i 0).val / 512 :=
    ⟨⟨(i 0).val / 512, by rw [show cfg0.N = 4 from N_0]; omega⟩, rfl⟩
  obtain ⟨-, -, -, -, -, -, -, -, -, -, e0, e1⟩ := idx_facts t
  refine ⟨t, flush0_5 t, ?_⟩
  rw [dw_mem]
  intro a
  match a with
  | ⟨0, _⟩ =>
    show win0_5.index t (0 : Fin 2) * 512 ≤ (i 0).val ∧ (i 0).val < win0_5.index t (0 : Fin 2) * 512 + 512
    rw [e0, ht]; omega
  | ⟨1, _⟩ =>
    show win0_5.index t (1 : Fin 2) * 2048 ≤ (i 1).val ∧ (i 1).val < win0_5.index t (1 : Fin 2) * 2048 + 2048
    rw [e1]; omega

/-- After the run the weight-change array is the layer's weight change of the arguments. -/
theorem dw_final (c : Dev nD) :
    (dats m 0 c).arrAt 5 cfg0.N = dwOf (m ((c : Thread nD τ).loc main_arg0)) (m ((c : Thread nD τ).loc main_arg2))
      (m ((c : Thread nD τ).loc main_arg3)) (m ((c : Thread nD τ).loc main_arg1)) :=
  (dats m 0 c).arrAt_eq_of_cover 5 _ (fun t _ => dw_flushed m c t) dw_cover

/-! ## The run, read -/

/-- Every weakly fair execution of the idealized kernel ends with the two result arrays at the layer's spike array and
    weight change of the argument arrays, the arguments unchanged. -/
theorem run : θ_run defs (onTc (τ := τ) (main (F := Ideal))) ⟨m, fun _ => 0, ρ⟩ fun r => ∀ c : Dev nD,
      r.2.mem ((c : Thread nD τ).loc main_v0_0)
        = spikesOf (m ((c : Thread nD τ).loc main_arg0)) (m ((c : Thread nD τ).loc main_arg1))
      ∧ r.2.mem ((c : Thread nD τ).loc main_v0_1)
        = dwOf (m ((c : Thread nD τ).loc main_arg0)) (m ((c : Thread nD τ).loc main_arg2))
            (m ((c : Thread nD τ).loc main_arg3)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (spikes_final m c), (h c).2.1.trans (dw_final m c), (h c).2.2⟩)
    (run_blocks m ρ)

end Cert.Stdp.Blocks

end
-- ==== Proof.RefReads.lean ====
/-
  The reference's two results, entry by entry, are the rule of Rule.lean.

  The reference computes the drive of every (batch row, neuron) pair as one contraction of the inputs with the transposed
  weight matrix, the spike array from it, the two updated traces, the clipped weights, and the weight change as
  `(−clip) · (postᵀ·x) + clip · (spikeᵀ·pre)`: two contractions over the 32 batch rows. Read at neuron `q` and
  pre-synaptic line `p`, every one of these stages depends on the weights through row `q` of `W` only and on the
  post-synaptic traces through column `q` only, and is the corresponding quantity of the one-neuron rule: the spike
  array's entry (b, q) is `spike`, the weight change's entry (q, p) is `dwSplit`.
-/
import proofs.«140820_j22308060135454_2_alg».proof.Proof.Gen.ReferenceIdeal.Read
import proofs.«140820_j22308060135454_2_alg».proof.Proof.Rule

noncomputable section

open scoped BigOperators

namespace Cert.Stdp.Ref

open Cert.ReferenceIdeal Cert.ReferenceIdeal.Read Idealize.ShloMosaic Idealize.ShloMosaic.ValueIdx Cert.Stdp Cert.LibRealEntries

variable (X : (⟨S32x2048, .f32⟩ : BufTy).Contents (Elt Ideal)) (W : (⟨S2048x2048, .f32⟩ : BufTy).Contents (Elt Ideal))
variable (Tpre Tpost : (⟨S32x2048, .f32⟩ : BufTy).Contents (Elt Ideal))

/-- The contraction against the transposed weights, at (b, q), is the drive of row `b` into neuron `q`. -/
theorem drive_apply (b : Fin 32) (q : Fin 2048) :
    val_main_v1 (F := Ideal) X W (ix2 b q) = drive (rowsOf X) (weightRow W q) b := by
  rw [val_main_v1_apply]
  unfold drive
  refine Finset.sum_congr rfl fun k _ => ?_
  rw [val_main_v0_apply]
  have e1 : lidx_main_v1 (ix2 b q) k = ix2 b k := funext fun a => Fin.ext (by
    match a with
    | ⟨0, _⟩ => rfl
    | ⟨1, _⟩ => rfl)
  have e2 : idx_main_v0 (ridx_main_v1 (ix2 b q) k) = ix2 q k := funext fun a => Fin.ext (by
    match a with
    | ⟨0, _⟩ => rfl
    | ⟨1, _⟩ => rfl)
  rw [e1, e2]

/-- The reference's spike array at (b, q). -/
theorem spike_apply (b : Fin 32) (q : Fin 2048) :
    val_main_v4 (F := Ideal) X W (ix2 b q) = spike (rowsOf X) (weightRow W q) b := by
  rw [val_main_v4_apply, val_main_v3_apply, drive_apply, val_main_v2_apply, val_main_cst_apply]
  rfl

/-- The updated pre-synaptic trace at (b, p). -/
theorem preTrace_apply (b : Fin 32) (p : Fin 2048) :
    val_main_v8 (F := Ideal) X Tpre (ix2 b p) = preTrace (rowsOf X) (rowsOf Tpre) b p := by
  rw [val_main_v8_apply, val_main_v7_apply, val_main_v6_apply, val_main_v5_apply, val_main_cst_0_apply]
  rfl

/-- The updated post-synaptic trace at (b, q). -/
theorem postTrace_apply (b : Fin 32) (q : Fin 2048) :
    val_main_v12 (F := Ideal) X W Tpost (ix2 b q) = postTrace (rowsOf X) (weightRow W q) (traceCol Tpost q) b := by
  rw [val_main_v12_apply, val_main_v11_apply, val_main_v10_apply, val_main_v9_apply, val_main_cst_1_apply, spike_apply]
  rfl

/-- The clipped weight at (q, p). -/
theorem clip_apply (q p : Fin 2048) :
    val_main_v13 (F := Ideal) W (ix2 q p) = clipW (weightRow W q) p := by
  rw [val_main_v13_apply, val_main_call0_v4_apply, val_main_call0_v3_apply, val_main_cst_3_apply,
    val_main_call0_v2_apply, val_main_call0_v1_apply, val_main_call0_v0_apply, val_main_cst_2_apply]
  rfl

/-- The reference's weight change at (q, p): the two sums over the batch scaled separately, then added. -/
theorem dw_apply (q p : Fin 2048) :
    val_main_v19 (F := Ideal) X W Tpre Tpost (ix2 q p)
      = dwSplit (rowsOf X) (rowsOf Tpre) (weightRow W q) (traceCol Tpost q) p := by
  have el15 : ∀ k : Fin 32, lidx_main_v15 (ix2 q p) k = ix2 k q := fun k => funext fun a => Fin.ext (by
    match a with
    | ⟨0, _⟩ => rfl
    | ⟨1, _⟩ => rfl)
  have er15 : ∀ k : Fin 32, ridx_main_v15 (ix2 q p) k = ix2 k p := fun k => funext fun a => Fin.ext (by
    match a with
    | ⟨0, _⟩ => rfl
    | ⟨1, _⟩ => rfl)
  have el17 : ∀ k : Fin 32, lidx_main_v17 (ix2 q p) k = ix2 k q := fun k => funext fun a => Fin.ext (by
    match a with
    | ⟨0, _⟩ => rfl
    | ⟨1, _⟩ => rfl)
  have er17 : ∀ k : Fin 32, ridx_main_v17 (ix2 q p) k = ix2 k p := fun k => funext fun a => Fin.ext (by
    match a with
    | ⟨0, _⟩ => rfl
    | ⟨1, _⟩ => rfl)
  rw [val_main_v19_apply, val_main_v16_apply, val_main_v18_apply, val_main_v14_apply, val_main_v15_apply,
    val_main_v17_apply, clip_apply]
  simp only [el15, er15, el17, er17, postTrace_apply, spike_apply, preTrace_apply]
  rfl

/-- The reference's first result is the layer's spike array. -/
theorem spikes_eq : val_main_v4 (F := Ideal) X W = spikesOf X W := by
  funext i
  obtain ⟨b, q, rfl⟩ : ∃ (b : Fin 32) (q : Fin 2048), i = ix2 b q := ⟨i 0, i 1, eq_ix2 i⟩
  exact spike_apply X W b q

/-- For real inputs the reference's second result is the layer's weight change with the difference taken inside: the
    law of Rule.lean, at every entry. -/
theorem dw_eq (hX : ∀ i, IsReal (X i)) (hW : ∀ i, IsReal (W i)) (hpre : ∀ i, IsReal (Tpre i)) (hpost : ∀ i, IsReal (Tpost i)) :
    val_main_v19 (F := Ideal) X W Tpre Tpost = dwOf X Tpre Tpost W := by
  funext i
  obtain ⟨q, p, rfl⟩ : ∃ (q p : Fin 2048), i = ix2 q p := ⟨i 0, i 1, eq_ix2 i⟩
  rw [dw_apply, dwOf_apply]
  exact dwSplit_eq_dwFused _ _ _ _ (fun b p => hX _) (fun b p => hpre _) (fun p => hW _) (fun b => hpost _) p

end Cert.Stdp.Ref

end
-- ==== Proof.LibAllFinite.lean ====
/-
  Reading a precondition's words. A precondition printed from `jnp.all(jnp.abs(x) < inf) & … & jnp.all(s > 0)` is a
  conjunction of `and`-reductions of comparison words, read at its one index. A comparison word that is `1` is the
  comparison of the two extended reals; `|x| < +∞` makes `x` a real number; hence an all-reduction of `|a| < +∞`
  that is `1` makes every entry of `a` real, and a word `a > b` at an index is `b j < a j`.
-/
import proofs.«140820_j22308060135454_2_alg».proof.Proof.LibRealEntries
import Idealize.ShloMosaic.Lib.ReduceAll
import Idealize.ShloMosaic.Lib.ValueIdx
import Idealize.ShloMosaic.PureOps.Ideal.Laws

noncomputable section

namespace Cert.LibAllFinite

open Idealize.ShloMosaic Idealize.ShloMosaic.ValueIdx Cert.LibRealEntries

instance : Subsingleton (⟨0, ![]⟩ : Shape).Idx := ⟨fun a b => funext fun d => d.elim0⟩

/-- The word `0x7F800000` is `+∞`. -/
theorem ofBits_inf : Ideal.ofBits .f32 0x7F800000#32 = (⊤ : EReal) := by
  simp [Ideal.ofBits, Ideal.ieee]

/-- A true comparison word is the comparison. -/
theorem lt_of_cmp_olt {x y : EReal} (h : Ideal.cmp .olt x y = 1#1) : x < y := by
  by_contra hn
  have : decide (x < y) = false := decide_eq_false hn
  simp [Ideal.cmp, this] at h

theorem lt_of_cmp_ogt {x y : EReal} (h : Ideal.cmp .ogt x y = 1#1) : y < x := by
  by_contra hn
  have : decide (y < x) = false := decide_eq_false hn
  simp [Ideal.cmp, this] at h

/-- `|x| < +∞` makes `x` a real number. -/
theorem isReal_of_abs_lt_top (x : EReal) (h : max x (-x) < (⊤ : EReal)) : IsReal x := by
  induction x using EReal.rec with
  | bot => simp at h
  | coe r => exact ⟨r, rfl⟩
  | top => simp at h

/-- `jnp.all(|a| < +∞)` that is true makes every entry of `a` a real number. -/
theorem real_of_all {s : Shape} {axes : List (Fin s.rank)} (a : FVec Ideal s .f32)
    (hb : (⟨0, ![]⟩ : Shape).BroadcastsInDim s (![] : Fin 0 → Fin s.rank))
    (init : IVec ⟨0, ![]⟩ 1) (hred : s.ReducesTo axes ⟨0, ![]⟩) (hu : 0 < (⟨0, ![]⟩ : Shape).numel)
    (h : Host.reduce IntOp.andi
      (cmpf .olt (Host.absf a) (broadcastInDim s ![] hb (constant (F := Ideal) ⟨0, ![]⟩ .f32 0x7F800000#32)))
      init hred hu ix0 = 1#1) (i : s.Idx) : IsReal (a i) := by
  have hi := Host.reduce_andi_all _ init hred hu ix0 h i
  have h1 : Ideal.cmp .olt (max (a i) (-(a i))) (Ideal.ofBits .f32 0x7F800000#32) = 1#1 := hi
  rw [ofBits_inf] at h1
  exact isReal_of_abs_lt_top _ (lt_of_cmp_olt h1)

/-- A true comparison word between two arrays at an index is the inequality of their entries. -/
theorem lt_of_cmpf_ogt {s : Shape} (a b : FVec Ideal s .f32) (j : s.Idx) (h : cmpf .ogt a b j = 1#1) : b j < a j :=
  lt_of_cmp_ogt h

end Cert.LibAllFinite

end
-- ==== Proof.Finite.lean ====
/-
  What the precondition says: every entry of the four argument arrays is a real number.

  The precondition is the conjunction, over the four arrays, of "every entry's absolute value is below +∞", each
  conjunct an and-reduction of comparison bits to one bit. The whole being 1, each conjunct is 1, so each comparison
  holds at every index, and an extended real whose absolute value is below +∞ is a real number.
-/
import proofs.«140820_j22308060135454_2_alg».proof.Pre_finite_inputs
import proofs.«140820_j22308060135454_2_alg».proof.Proof.LibAllFinite
import Idealize.ShloMosaic.Lib.Affine

noncomputable section

namespace Cert.Stdp.Finite

open Idealize.ShloMosaic Idealize.ShloMosaic.ValueIdx Cert.LibRealEntries Cert.LibAllFinite Cert.Pre_finite_inputs

variable [Cert.Pre_finite_inputs.Facts]

/-- Under the precondition all four argument arrays have real entries. -/
theorem real_of_pre (a0 : FVec Ideal S32x2048 .f32) (a1 : FVec Ideal S2048x2048 .f32) (a2 a3 : FVec Ideal S32x2048 .f32)
    (h : fn (F := Ideal) a0 a1 a2 a3 = fun _ => 1#1) :
    (∀ i, IsReal (a0 i)) ∧ (∀ i, IsReal (a1 i)) ∧ (∀ i, IsReal (a2 i)) ∧ (∀ i, IsReal (a3 i)) := by
  have h0 := congrFun h ix0
  dsimp only [fn, fn_part1] at h0
  obtain ⟨h012, h3⟩ := IntOp.andi_eq_one.mp h0
  obtain ⟨h01, h2⟩ := IntOp.andi_eq_one.mp h012
  obtain ⟨h0', h1⟩ := IntOp.andi_eq_one.mp h01
  exact ⟨real_of_all a0 _ _ _ _ h0', real_of_all a1 _ _ _ _ h1, real_of_all a2 _ _ _ _ h2, real_of_all a3 _ _ _ _ h3⟩

end Cert.Stdp.Finite

end
-- ==== Proof.lean ====
/-
  A spiking layer's plasticity step: 32 input rows drive 2048 neurons through a 2048 × 2048 weight matrix; a neuron
  spikes when its drive reaches one; the pre- and post-synaptic traces decay by half and gain the input, respectively
  the spike; the weight change is the clipped weight times (spikeᵀ · pre-trace − post-traceᵀ · input), two contractions
  over the batch.

  The kernel works on 512 neurons per grid point and takes the difference inside ONE contraction over 64 stacked rows
  (the negation spelt `0 − v`); the reference scales the two contractions by `−clip` and `clip` separately and adds.
  Over the extended reals the two groupings differ by a distributive law, which holds where the quantities are real
  numbers: that is what the precondition (every input finite) gives, and the only place it is used. The spike arrays
  agree with no condition: on both sides an entry is the same comparison of the same sum.

  The modules: Rule.lean (the rule on one neuron, the two groupings and the law), RefReads.lean (the reference's
  results entry by entry), BodyReads.lean (the kernel body's two stored values entry by entry), Blocks.lean (the four
  points' blocks tile the result arrays), Finite.lean (the precondition read as "every entry is real"). Here: the three
  frames, the empty idealization ledger, and the two runs set side by side.
-/
import proofs.«140820_j22308060135454_2_alg».proof.Defs
import proofs.«140820_j22308060135454_2_alg».proof.Proof.Gen.Kernel
import proofs.«140820_j22308060135454_2_alg».proof.Proof.Gen.Kernel.Frame
import proofs.«140820_j22308060135454_2_alg».proof.Proof.Gen.KernelIdeal
import proofs.«140820_j22308060135454_2_alg».proof.Proof.Gen.KernelIdeal.Frame
import proofs.«140820_j22308060135454_2_alg».proof.Proof.Gen.KernelIdeal.Value
import proofs.«140820_j22308060135454_2_alg».proof.Proof.Gen.ReferenceIdeal
import proofs.«140820_j22308060135454_2_alg».proof.Proof.Gen.ReferenceIdeal.Run
import proofs.«140820_j22308060135454_2_alg».proof.Proof.Gen.ReferenceIdeal.Read
import proofs.«140820_j22308060135454_2_alg».proof.Proof.Gen.Pre_finite_inputs
import proofs.«140820_j22308060135454_2_alg».proof.Proof.Blocks
import proofs.«140820_j22308060135454_2_alg».proof.Proof.RefReads
import proofs.«140820_j22308060135454_2_alg».proof.Proof.Finite
import Idealize.ShloMosaic.Adequacy
import Idealize.ShloMosaic.Init

noncomputable section

namespace Cert.Proof

open Idealize.ShloMosaic Idealize.ShloMosaic.TcCoe Idealize.SL.Sem Cert.Stdp

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a sequence of host operations: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the four arguments, the idealized kernel and the idealized reference both end with the
    layer's spike array and weight change of those arguments. The kernel's side is the run of Blocks.lean; the
    reference's results are rewritten to the same two functions, the weight change through the law of Rule.lean, whose
    hypotheses (real entries) are the precondition. -/
theorem algebraic : Cert.algebraic_KernelIdeal_ReferenceIdeal := by
  intro m ρ m' ρ' hpre hagree
  refine ⟨fun c => spikesOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => dwOf (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg1)),
    Blocks.run m ρ, ?_⟩
  refine (θ_run Cert.ReferenceIdeal.defs _ _).mono (fun _ h c => ?_) (Cert.ReferenceIdeal.Value.run (F := Ideal) m' ρ')
  obtain ⟨hX, hW, hTpre, hTpost⟩ := Finite.real_of_pre _ _ _ _ (hpre c)
  obtain ⟨a0, a1, a2, a3⟩ := hagree c
  refine ⟨(h c).1.trans ?_, (h c).2.1.trans ?_, (h c).2.2⟩
  · rw [a0, a1]
    exact (Cert.ReferenceIdeal.Read.val_main_v4_eq _ _).trans (Ref.spikes_eq _ _)
  · rw [a0, a1, a2, a3]
    exact (Cert.ReferenceIdeal.Read.val_main_v19_eq _ _ _ _).trans (Ref.dw_eq _ _ _ _ hX hW hTpre hTpost)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
